-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x16384 : Shape := ⟨3, ![16, 256, 16384]⟩
abbrev S16x512 : Shape := ⟨2, ![16, 512]⟩
abbrev S256x256 : Shape := ⟨2, ![256, 256]⟩
abbrev S256x512 : Shape := ⟨2, ![256, 512]⟩
abbrev S256 : Shape := ⟨1, ![256]⟩
abbrev S_ : Shape := ⟨0, ![]⟩

class Facts : Prop where
  bcast_S_S16x256x16384 : S_.BroadcastsInDim S16x256x16384 (![] : Fin 0 → Fin S16x256x16384.rank)
  reducesTo_S16x256x16384_S_d0_1_2 : S16x256x16384.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256x512 .f32) (main_arg12 : FVec F S256 .f32) (main_arg13 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256x512 .f32) (main_arg8 : FVec F S256 .f32) (main_arg9 : FVec F S256 .f32) (main_arg10 : FVec F S256x256 .f32) (main_arg11 : FVec F S256x512 .f32) (main_arg12 : FVec F S256 .f32) (main_arg13 : FVec F S256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S256 .f32) (main_arg5 : FVec F S256 .f32) (main_arg6 : FVec F S256x256 .f32) (main_arg7 : FVec F S256x512 .f32) (main_arg8 : FVec F S256 .f32) (main_arg9 : FVec F S256 .f32) (main_arg10 : FVec F S256x256 .f32) (main_arg11 : FVec F S256x512 .f32) (main_arg12 : FVec F S256 .f32) (main_arg13 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16x256x16384 .f32) (main_arg1 : FVec F S16x512 .f32) (main_arg2 : FVec F S256x256 .f32) (main_arg3 : FVec F S256x512 .f32) (main_arg4 : FVec F S256 .f32) (main_arg5 : FVec F S256 .f32) (main_arg6 : FVec F S256x256 .f32) (main_arg7 : FVec F S256x512 .f32) (main_arg8 : FVec F S256 .f32) (main_arg9 : FVec F S256 .f32) (main_arg10 : FVec F S256x256 .f32) (main_arg11 : FVec F S256x512 .f32) (main_arg12 : FVec F S256 .f32) (main_arg13 : FVec F S256 .f32) : IVec S_ 1 :=
  let main_v0 : FVec F S16x256x16384 .f32 := Host.absf main_arg0
  let main_cst : FVec F S_ .f32 := constant S_ .f32 0x7F800000#32
  let main_v1 : FVec F S16x256x16384 .f32 := broadcastInDim S16x256x16384 ![] bcast_S_S16x256x16384 main_cst
  let main_v2 : IVec S16x256x16384 1 := cmpf .olt main_v0 main_v1
  let main_c : IVec S_ 1 := constantI S_ 1 1#1
  let main_v3 : IVec S_ 1 := (fun x v => Host.reduce IntOp.andi x v reducesTo_S16x256x16384_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_arg9 main_arg10 main_arg11 main_arg12 main_arg13 main_v13 main_v16
-- ==== Kernel.lean ====
abbrev S16x256x16384 : Shape := ⟨3, ![16, 256, 16384]⟩
abbrev S16x512 : Shape := ⟨2, ![16, 512]⟩
abbrev S256x256 : Shape := ⟨2, ![256, 256]⟩
abbrev S256x512 : Shape := ⟨2, ![256, 512]⟩
abbrev S256 : Shape := ⟨1, ![256]⟩
abbrev S512x256 : Shape := ⟨2, ![512, 256]⟩
abbrev S_ : Shape := ⟨0, ![]⟩
abbrev S16x256 : Shape := ⟨2, ![16, 256]⟩
abbrev S1x256 : Shape := ⟨2, ![1, 256]⟩
abbrev S1x256x256 : Shape := ⟨3, ![1, 256, 256]⟩
abbrev S16x1x256 : Shape := ⟨3, ![16, 1, 256]⟩
abbrev S16x256x256 : Shape := ⟨3, ![16, 256, 256]⟩
abbrev S16x256x1 : Shape := ⟨3, ![16, 256, 1]⟩
abbrev S256x1 : Shape := ⟨2, ![256, 1]⟩
abbrev S1x256x2048 : Shape := ⟨3, ![1, 256, 2048]⟩
abbrev S256x2048 : Shape := ⟨2, ![256, 2048]⟩

abbrev nBuf : Space → Nat
  | .hbm => 99
  | .vmem => 13
  | .smem => 0
  | _ => 0

abbrev bufTy : (tb : Table) → Fin (tcTables nBuf tb) → BufTy
  | .hbm, ⟨0, _⟩ => ⟨S16x256x16384, .f32⟩
  | .hbm, ⟨1, _⟩ => ⟨S16x512, .f32⟩
  | .hbm, ⟨2, _⟩ => ⟨S256x256, .f32⟩
  | .hbm, ⟨3, _⟩ => ⟨S256x512, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256x512, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256x512, .f32⟩
  | .hbm, ⟨12, _⟩ => ⟨S256, .f32⟩
  | .hbm, ⟨13, _⟩ => ⟨S256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S16x256, .f32⟩
  | .hbm, ⟨19, _⟩ => ⟨S1x256, .f32⟩
  | .hbm, ⟨20, _⟩ => ⟨S16x256, .f32⟩
  | .hbm, ⟨21, _⟩ => ⟨S16x256, .f32⟩
  | .hbm, ⟨22, _⟩ => ⟨S1x256x256, .f32⟩
  | .hbm, ⟨23, _⟩ => ⟨S_, .f32⟩
  | .hbm, ⟨24, _⟩ => ⟨S1x256x256, .f32⟩
  | .hbm, ⟨25, _⟩ => ⟨S1x256x256, .f32⟩
  | .hbm, ⟨26, _⟩ => ⟨S16x1x256, .f32⟩
  | .hbm, ⟨27, _⟩ => ⟨S16x256x256, .f32⟩
  | .hbm, ⟨28, _⟩ => ⟨S16x256x256, .f32⟩
  | .hbm, ⟨29, _⟩ => ⟨S16x256x256, .f32⟩
  | .hbm, ⟨30, _⟩ => ⟨S16x256x256, .f32⟩
  | .hbm, ⟨31, _⟩ => ⟨S_, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256, .f32⟩
  | .hbm, ⟨37, _⟩ => ⟨S16x256x1, .f32⟩
  | .hbm, ⟨38, _⟩ => ⟨S16x256x256, .f32⟩
  | .hbm, ⟨39, _⟩ => ⟨S16x256x256, .f32⟩
  | .hbm, ⟨40, _⟩ => ⟨S16x256x256, .bf16⟩
  | .hbm, ⟨41, _⟩ => ⟨S512x256, .f32⟩
  | .hbm, ⟨42, _⟩ => ⟨S_, .f32⟩
  | .hbm, ⟨43, _⟩ => ⟨S512x256, .f32⟩
  | .hbm, ⟨44, _⟩ => ⟨S512x256, .f32⟩
  | .hbm, ⟨45, _⟩ => ⟨S16x256, .f32⟩
  | .hbm, ⟨46, _⟩ => ⟨S1x256, .f32⟩
  | .hbm, ⟨47, _⟩ => ⟨S16x256, .f32⟩
  | .hbm, ⟨48, _⟩ => ⟨S16x256, .f32⟩
  | .hbm, ⟨49, _⟩ => ⟨S1x256x256, .f32⟩
  | .hbm, ⟨50, _⟩ => ⟨S_, .f32⟩
  | .hbm, ⟨51, _⟩ => ⟨S1x256x256, .f32⟩
  | .hbm, ⟨52, _⟩ => ⟨S1x256x256, .f32⟩
  | .hbm, ⟨53, _⟩ => ⟨S16x1x256, .f32⟩
  | .hbm, ⟨54, _⟩ => ⟨S16x256x256, .f32⟩
  | .hbm, ⟨55, _⟩ => ⟨S16x256x256, .f32⟩
  | .hbm, ⟨56, _⟩ => ⟨S16x256x256, .f32⟩
  | .hbm, ⟨57, _⟩ => ⟨S16x256x256, .f32⟩
  | .hbm, ⟨58, _⟩ => ⟨S_, .f32⟩
  | .hbm, ⟨59, _⟩ => ⟨S16x256, .f32⟩
  | .hbm, ⟨60, _⟩ => ⟨S_, .f32⟩
  | .hbm, ⟨61, _⟩ => ⟨S16x256, .f32⟩
  | .hbm, ⟨62, _⟩ => ⟨S16x256, .f32⟩
  | .hbm, ⟨63, _⟩ => ⟨S16x256, .f32⟩
  | .hbm, ⟨64, _⟩ => ⟨S16x256x1, .f32⟩
  | .hbm, ⟨65, _⟩ => ⟨S16x256x256, .f32⟩
  | .hbm, ⟨66, _⟩ => ⟨S16x256x256, .f32⟩
  | .hbm, ⟨67, _⟩ => ⟨S16x256x256, .bf16⟩
  | .hbm, ⟨68, _⟩ => ⟨S512x256, .f32⟩
  | .hbm, ⟨69, _⟩ => ⟨S_, .f32⟩
  | .hbm, ⟨70, _⟩ => ⟨S512x256, .f32⟩
  | .hbm, ⟨71, _⟩ => ⟨S512x256, .f32⟩
  | .hbm, ⟨72, _⟩ => ⟨S16x256, .f32⟩
  | .hbm, ⟨73, _⟩ => ⟨S1x256, .f32⟩
  | .hbm, ⟨74, _⟩ => ⟨S16x256, .f32⟩
  | .hbm, ⟨75, _⟩ => ⟨S16x256, .f32⟩
  | .hbm, ⟨76, _⟩ => ⟨S1x256x256, .f32⟩
  | .hbm, ⟨77, _⟩ => ⟨S_, .f32⟩
  | .hbm, ⟨78, _⟩ => ⟨S1x256x256, .f32⟩
  | .hbm, ⟨79, _⟩ => ⟨S1x256x256, .f32⟩
  | .hbm, ⟨80, _⟩ => ⟨S16x1x256, .f32⟩
  | .hbm, ⟨81, _⟩ => ⟨S16x256x256, .f32⟩
  | .hbm, ⟨82, _⟩ => ⟨S16x256x256, .f32⟩
  | .hbm, ⟨83, _⟩ => ⟨S16x256x256, .f32⟩
  | .hbm, ⟨84, _⟩ => ⟨S16x256x256, .f32⟩
  | .hbm, ⟨85, _⟩ => ⟨S_, .f32⟩
  | .hbm, ⟨86, _⟩ => ⟨S16x256, .f32⟩
  | .hbm, ⟨87, _⟩ => ⟨S_, .f32⟩
  | .hbm, ⟨88, _⟩ => ⟨S16x256, .f32⟩
  | .hbm, ⟨89, _⟩ => ⟨S16x256, .f32⟩
  | .hbm, ⟨90, _⟩ => ⟨S16x256, .f32⟩
  | .hbm, ⟨91, _⟩ => ⟨S16x256x1, .f32⟩
  | .hbm, ⟨92, _⟩ => ⟨S16x256x256, .f32⟩
  | .hbm, ⟨93, _⟩ => ⟨S16x256x256, .f32⟩
  | .hbm, ⟨94, _⟩ => ⟨S16x256x256, .bf16⟩
  | .hbm, ⟨95, _⟩ => ⟨S256x1, .f32⟩
  | .hbm, ⟨96, _⟩ => ⟨S256x1, .f32⟩
  | .hbm, ⟨97, _⟩ => ⟨S256x1, .f32⟩
  | .hbm, ⟨98, _⟩ => ⟨S16x256x16384, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | _, _ => ⟨S16x256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S256x512_S512x256_1_0 : S256x512.Transposes [1, 0] S512x256
  bcast_S_S512x256 : S_.BroadcastsInDim S512x256 (![] : Fin 0 → Fin S512x256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S256x256_S1x256x256_1_2 : S256x256.BroadcastsInDim S1x256x256 (![1, 2] : Fin 2 → Fin S1x256x256.rank)
  bcast_S_S1x256x256 : S_.BroadcastsInDim S1x256x256 (![] : Fin 0 → Fin S1x256x256.rank)
  bcast_S16x256_S16x1x256_0_2 : S16x256.BroadcastsInDim S16x1x256 (![0, 2] : Fin 2 → Fin S16x1x256.rank)
  bcast_S1x256x256_S16x256x256_0_1_2 : S1x256x256.BroadcastsInDim S16x256x256 (![0, 1, 2] : Fin 3 → Fin S16x256x256.rank)
  bcast_S16x1x256_S16x256x256_0_1_2 : S16x1x256.BroadcastsInDim S16x256x256 (![0, 1, 2] : Fin 3 → Fin S16x256x256.rank)
  reducesTo_S16x256x256_S16x256_d2 : S16x256x256.ReducesTo [2] S16x256
  h_S_ : 0 < S_.numel
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S16x256x1_S16x256x256_0_1_2 : S16x256x1.BroadcastsInDim S16x256x256 (![0, 1, 2] : Fin 3 → Fin S16x256x256.rank)
  bitsLt_bf16_f32 : FTy.bits .bf16 < FTy.bits .f32
  shapeCasts_S256_S256x1 : S256.ShapeCasts S256x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  broadcasts_S256x1_S256x2048 : S256x1.Broadcasts S256x2048
  shapeCasts_S256x2048_S1x256x2048 : S256x2048.ShapeCasts S1x256x2048
  dot_S16x512_S512x256_S16x256_1_0_0_1_n_n_wf : DotDims.WF S16x512 S512x256 S16x256 [1] [0] [0] [1] [] []
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x256x256.size a
  hwx0_0 : ∀ i : grid0.Coords, EltTy.bits .bf16 = 32 ∨ (Rect.block (s := S16x256x256) S1x256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S16x256x256.size a
  hwx0_1 : ∀ i : grid0.Coords, EltTy.bits .bf16 = 32 ∨ (Rect.block (s := S16x256x256) S1x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S16x256x256.size a
  hwx0_2 : ∀ i : grid0.Coords, EltTy.bits .bf16 = 32 ∨ (Rect.block (s := S16x256x256) S1x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x2048.size a ≤ S16x256x16384.size a
  hwx0_6 : ∀ i : grid0.Coords, EltTy.bits .f32 = 32 ∨ (Rect.block (s := S16x256x16384) S1x256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x2048.size a ≤ S16x256x16384.size a
  hwx0_7 : ∀ i : grid0.Coords, EltTy.bits .f32 = 32 ∨ (Rect.block (s := S16x256x16384) S1x256x2048.size (cc0_transform_7 i) (hinb0_7 i)).WholeWords (EltTy.packing .f32)

variable [Facts₀]

def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_v22) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v69) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v71) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S1x256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v72) S1x256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x256x16384 : Shape := ⟨3, ![16, 256, 16384]⟩
abbrev S16x512 : Shape := ⟨2, ![16, 512]⟩
abbrev S256x256 : Shape := ⟨2, ![256, 256]⟩
abbrev S256x512 : Shape := ⟨2, ![256, 512]⟩
abbrev S256 : Shape := ⟨1, ![256]⟩
abbrev S512x256 : Shape := ⟨2, ![512, 256]⟩
abbrev S_ : Shape := ⟨0, ![]⟩
abbrev S16x256 : Shape := ⟨2, ![16, 256]⟩
abbrev S1x256 : Shape := ⟨2, ![1, 256]⟩
abbrev S1x256x256 : Shape := ⟨3, ![1, 256, 256]⟩
abbrev S16x1x256 : Shape := ⟨3, ![16, 1, 256]⟩
abbrev S16x256x256 : Shape := ⟨3, ![16, 256, 256]⟩
abbrev S16x256x1 : Shape := ⟨3, ![16, 256, 1]⟩
abbrev S1x256x1 : Shape := ⟨3, ![1, 256, 1]⟩

abbrev nBuf : Space → Nat
  | .hbm => 134
  | .vmem => 0
  | .smem => 0
  | _ => 0

abbrev hbmTy0_0 (i : Nat) : BufTy := match i % 128 with
  | 0 => ⟨S16x256x16384, .f32⟩
  | 1 => ⟨S16x512, .f32⟩
  | 2 => ⟨S256x256, .f32⟩
  | 3 => ⟨S256x512, .f32⟩
  | 4 => ⟨S256, .f32⟩
  | 5 => ⟨S256, .f32⟩
  | 6 => ⟨S256x256, .f32⟩
  | 7 => ⟨S256x512, .f32⟩
  | 8 => ⟨S256, .f32⟩
  | 9 => ⟨S256, .f32⟩
  | 10 => ⟨S256x256, .f32⟩
  | 11 => ⟨S256x512, .f32⟩
  | 12 => ⟨S256, .f32⟩
  | 13 => ⟨S256, .f32⟩
  | 14 => ⟨S512x256, .f32⟩
  | 15 => ⟨S_, .f32⟩
  | 16 => ⟨S512x256, .f32⟩
  | 17 => ⟨S512x256, .f32⟩
  | 18 => ⟨S16x256, .f32⟩
  | 19 => ⟨S1x256, .f32⟩
  | 20 => ⟨S16x256, .f32⟩
  | 21 => ⟨S16x256, .f32⟩
  | 22 => ⟨S1x256x256, .f32⟩
  | 23 => ⟨S_, .f32⟩
  | 24 => ⟨S1x256x256, .f32⟩
  | 25 => ⟨S1x256x256, .f32⟩
  | 26 => ⟨S16x1x256, .f32⟩
  | 27 => ⟨S16x256x256, .f32⟩
  | 28 => ⟨S16x256x256, .f32⟩
  | 29 => ⟨S16x256x256, .f32⟩
  | 30 => ⟨S16x256x256, .f32⟩
  | 31 => ⟨S_, .f32⟩
  | 32 => ⟨S16x256, .f32⟩
  | 33 => ⟨S_, .f32⟩
  | 34 => ⟨S16x256, .f32⟩
  | 35 => ⟨S16x256, .f32⟩
  | 36 => ⟨S16x256, .f32⟩
  | 37 => ⟨S16x256x1, .f32⟩
  | 38 => ⟨S16x256x256, .f32⟩
  | 39 => ⟨S16x256x256, .f32⟩
  | 40 => ⟨S16x256x16384, .f32⟩
  | 41 => ⟨S1x256x1, .f32⟩
  | 42 => ⟨S16x256x16384, .f32⟩
  | 43 => ⟨S16x256x16384, .f32⟩
  | 44 => ⟨S_, .f32⟩
  | 45 => ⟨S16x256x16384, .f32⟩
  | 46 => ⟨S16x256x16384, .i1⟩
  | 47 => ⟨S_, .f32⟩
  | 48 => ⟨S16x256x16384, .f32⟩
  | 49 => ⟨S16x256x16384, .f32⟩
  | 50 => ⟨S16x256x16384, .f32⟩
  | 51 => ⟨S_, .f32⟩
  | 52 => ⟨S16x256x16384, .f32⟩
  | 53 => ⟨S16x256x16384, .f32⟩
  | 54 => ⟨S512x256, .f32⟩
  | 55 => ⟨S_, .f32⟩
  | 56 => ⟨S512x256, .f32⟩
  | 57 => ⟨S512x256, .f32⟩
  | 58 => ⟨S16x256, .f32⟩
  | 59 => ⟨S1x256, .f32⟩
  | 60 => ⟨S16x256, .f32⟩
  | 61 => ⟨S16x256, .f32⟩
  | 62 => ⟨S1x256x256, .f32⟩
  | 63 => ⟨S_, .f32⟩
  | 64 => ⟨S1x256x256, .f32⟩
  | 65 => ⟨S1x256x256, .f32⟩
  | 66 => ⟨S16x1x256, .f32⟩
  | 67 => ⟨S16x256x256, .f32⟩
  | 68 => ⟨S16x256x256, .f32⟩
  | 69 => ⟨S16x256x256, .f32⟩
  | 70 => ⟨S16x256x256, .f32⟩
  | 71 => ⟨S_, .f32⟩
  | 72 => ⟨S16x256, .f32⟩
  | 73 => ⟨S_, .f32⟩
  | 74 => ⟨S16x256, .f32⟩
  | 75 => ⟨S16x256, .f32⟩
  | 76 => ⟨S16x256, .f32⟩
  | 77 => ⟨S16x256x1, .f32⟩
  | 78 => ⟨S16x256x256, .f32⟩
  | 79 => ⟨S16x256x256, .f32⟩
  | 80 => ⟨S16x256x16384, .f32⟩
  | 81 => ⟨S1x256x1, .f32⟩
  | 82 => ⟨S16x256x16384, .f32⟩
  | 83 => ⟨S16x256x16384, .f32⟩
  | 84 => ⟨S_, .f32⟩
  | 85 => ⟨S16x256x16384, .f32⟩
  | 86 => ⟨S16x256x16384, .i1⟩
  | 87 => ⟨S_, .f32⟩
  | 88 => ⟨S16x256x16384, .f32⟩
  | 89 => ⟨S16x256x16384, .f32⟩
  | 90 => ⟨S16x256x16384, .f32⟩
  | 91 => ⟨S_, .f32⟩
  | 92 => ⟨S16x256x16384, .f32⟩
  | 93 => ⟨S16x256x16384, .f32⟩
  | 94 => ⟨S512x256, .f32⟩
  | 95 => ⟨S_, .f32⟩
  | 96 => ⟨S512x256, .f32⟩
  | 97 => ⟨S512x256, .f32⟩
  | 98 => ⟨S16x256, .f32⟩
  | 99 => ⟨S1x256, .f32⟩
  | 100 => ⟨S16x256, .f32⟩
  | 101 => ⟨S16x256, .f32⟩
  | 102 => ⟨S1x256x256, .f32⟩
  | 103 => ⟨S_, .f32⟩
  | 104 => ⟨S1x256x256, .f32⟩
  | 105 => ⟨S1x256x256, .f32⟩
  | 106 => ⟨S16x1x256, .f32⟩
  | 107 => ⟨S16x256x256, .f32⟩
  | 108 => ⟨S16x256x256, .f32⟩
  | 109 => ⟨S16x256x256, .f32⟩
  | 110 => ⟨S16x256x256, .f32⟩
  | 111 => ⟨S_, .f32⟩
  | 112 => ⟨S16x256, .f32⟩
  | 113 => ⟨S_, .f32⟩
  | 114 => ⟨S16x256, .f32⟩
  | 115 => ⟨S16x256, .f32⟩
  | 116 => ⟨S16x256, .f32⟩
  | 117 => ⟨S16x256x1, .f32⟩
  | 118 => ⟨S16x256x256, .f32⟩
  | 119 => ⟨S16x256x256, .f32⟩
  | 120 => ⟨S16x256x16384, .f32⟩
  | 121 => ⟨S1x256x1, .f32⟩
  | 122 => ⟨S16x256x16384, .f32⟩
  | 123 => ⟨S16x256x16384, .f32⟩
  | 124 => ⟨S_, .f32⟩
  | 125 => ⟨S16x256x16384, .f32⟩
  | 126 => ⟨S16x256x16384, .i1⟩
  | 127 => ⟨S_, .f32⟩
  | _ => ⟨S16x256x16384, .f32⟩

abbrev hbmTy0_1 (i : Nat) : BufTy := match i % 128 with
  | 0 => ⟨S16x256x16384, .f32⟩
  | 1 => ⟨S16x256x16384, .f32⟩
  | 2 => ⟨S16x256x16384, .f32⟩
  | 3 => ⟨S_, .f32⟩
  | 4 => ⟨S16x256x16384, .f32⟩
  | 5 => ⟨S16x256x16384, .f32⟩
  | _ => ⟨S16x256x16384, .f32⟩

abbrev hbmTy (i : Nat) : BufTy := match i / 128 with
  | 0 => hbmTy0_0 i
  | 1 => hbmTy0_1 i
  | _ => ⟨S16x256x16384, .f32⟩

abbrev bufTy : (tb : Table) → Fin (tcTables nBuf tb) → BufTy
  | .hbm, ⟨i, _⟩ => hbmTy i
  | _, _ => ⟨S16x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_17 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  transposes_S256x512_S512x256_1_0 : S256x512.Transposes [1, 0] S512x256
  bcast_S_S512x256 : S_.BroadcastsInDim S512x256 (![] : Fin 0 → Fin S512x256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S256x256_S1x256x256_1_2 : S256x256.BroadcastsInDim S1x256x256 (![1, 2] : Fin 2 → Fin S1x256x256.rank)
  bcast_S_S1x256x256 : S_.BroadcastsInDim S1x256x256 (![] : Fin 0 → Fin S1x256x256.rank)
  bcast_S16x256_S16x1x256_0_2 : S16x256.BroadcastsInDim S16x1x256 (![0, 2] : Fin 2 → Fin S16x1x256.rank)
  bcast_S1x256x256_S16x256x256_0_1_2 : S1x256x256.BroadcastsInDim S16x256x256 (![0, 1, 2] : Fin 3 → Fin S16x256x256.rank)
  bcast_S16x1x256_S16x256x256_0_1_2 : S16x1x256.BroadcastsInDim S16x256x256 (![0, 1, 2] : Fin 3 → Fin S16x256x256.rank)
  reducesTo_S16x256x256_S16x256_d2 : S16x256x256.ReducesTo [2] S16x256
  h_S_ : 0 < S_.numel
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S16x256x1_S16x256x256_0_1_2 : S16x256x1.BroadcastsInDim S16x256x256 (![0, 1, 2] : Fin 3 → Fin S16x256x256.rank)
  bcast_S256_S1x256x1_1 : S256.BroadcastsInDim S1x256x1 (![1] : Fin 1 → Fin S1x256x1.rank)
  bcast_S1x256x1_S16x256x16384_0_1_2 : S1x256x1.BroadcastsInDim S16x256x16384 (![0, 1, 2] : Fin 3 → Fin S16x256x16384.rank)
  bcast_S_S16x256x16384 : S_.BroadcastsInDim S16x256x16384 (![] : Fin 0 → Fin S16x256x16384.rank)
  dot_S16x512_S512x256_S16x256_1_0_0_1_n_n_wf : DotDims.WF S16x512 S512x256 S16x256 [1] [0] [0] [1] [] []
  dot_S16x256x256_S16x256x16384_S16x256x16384_2_1_1_2_0_0_wf : DotDims.WF S16x256x256 S16x256x16384 S16x256x16384 [2] [1] [1] [2] [0] [0]

variable [Facts₀]

def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf
def dot_S16x256x256_S16x256x16384_S16x256x16384_2_1_1_2_0_0 : DotDims S16x256x256 S16x256x16384 S16x256x16384 where
  lhsContracting := [2]
  rhsContracting := [1]
  lhsNonContracting := [1]
  rhsNonContracting := [2]
  lhsBatch := [0]
  rhsBatch := [0]
  wf := dot_S16x256x256_S16x256x16384_S16x256x16384_2_1_1_2_0_0_wf

class Facts : Prop extends Facts₀ where

variable [Facts]
-- ==== Proof.Layer.lean ====
/-
  One layer of the network, and the network, as functions of whole arrays over the extended reals.

  A layer takes a per-sample weight `W[b, o, i]` (16 samples, 256 output channels, 256 input channels), a bias
  `c[o]` (a function of the output channel) and an activation `h[b, i, n]` (16384 positions) and returns

      act (∑ i, W[b, o, i] · h[b, i, n] + c[o])        at (b, o, n),

  where `act y` is the leaky rectifier with slope f32(0.2) scaled by f32(√2): `y` itself when `0 ≤ y`, otherwise
  `0.2 · y`, and the result times √2. The three float constants are kept as their words: both programs spell the same
  words, so their values are never needed. The network is three such layers, each fed the previous one's output.
-/
import Idealize.ShloMosaic.PureOps.Ideal
import Idealize.ShloMosaic.Lib.ValueIdx

noncomputable section

namespace Cert.StyledMlp

open Idealize.ShloMosaic Idealize.ShloMosaic.ValueIdx

/-- Activations `[16, 256, 16384]`: sample, channel, position. -/
abbrev SX : Shape := ⟨3, ![16, 256, 16384]⟩
/-- Per-sample weights `[16, 256, 256]`: sample, output channel, input channel. -/
abbrev SW : Shape := ⟨3, ![16, 256, 256]⟩

/-- The scaled leaky rectifier on one extended real: `y` if `0 ≤ y` else `0.2 · y`, times `√2` (constants as words). -/
def act (y : EReal) : EReal :=
  Scalar.select (FloatOps.cmpf (F := Ideal) (φ := .f32) .oge y (Ideal.ofBits .f32 0x00000000#32)) y
      (Ideal.ofBits .f32 0x3E4CCCCD#32 * y)
    * Ideal.ofBits .f32 0x3FB504F3#32

/-- One layer's entry at sample `b`, output channel `o`, position `n`. -/
def layerAt (W : SW.Idx → EReal) (c : Fin 256 → EReal) (h : SX.Idx → EReal) (b : Fin 16) (o : Fin 256) (n : Fin 16384) : EReal :=
  act (∑ i : Fin 256, W (ix3 b o i) * h (ix3 b i n) + c o)

/-- One layer as a whole array. -/
def layer (W : SW.Idx → EReal) (c : Fin 256 → EReal) (h : SX.Idx → EReal) : SX.Idx → EReal :=
  fun j => layerAt W c h (j 0) (j 1) (j 2)

theorem layer_apply (W : SW.Idx → EReal) (c : Fin 256 → EReal) (h : SX.Idx → EReal) (b : Fin 16) (o : Fin 256) (n : Fin 16384) :
    layer W c h (ix3 b o n) = layerAt W c h b o n := rfl

/-- A layer's entry depends on the weights of its sample, and on ONE column of the activation, the one at its own
    sample and position. As a function of that data: weights `w o i`, biases `c o`, column `xc i`. -/
def colLayer (w : Fin 256 → Fin 256 → EReal) (c : Fin 256 → EReal) (xc : Fin 256 → EReal) (o : Fin 256) : EReal :=
  act (∑ i : Fin 256, w o i * xc i + c o)

theorem layerAt_eq_colLayer (W : SW.Idx → EReal) (c : Fin 256 → EReal) (h : SX.Idx → EReal) (b : Fin 16) (o : Fin 256) (n : Fin 16384) :
    layerAt W c h b o n = colLayer (fun o i => W (ix3 b o i)) c (fun i => h (ix3 b i n)) o := rfl

/-- One-column layers on equal data are equal. -/
theorem colLayer_congr {w w' : Fin 256 → Fin 256 → EReal} {c c' : Fin 256 → EReal} {xc xc' : Fin 256 → EReal}
    (hw : ∀ o i, w o i = w' o i) (hc : ∀ o, c o = c' o) (hx : ∀ i, xc i = xc' i) (o : Fin 256) :
    colLayer w c xc o = colLayer w' c' xc' o := by
  obtain rfl : w = w' := funext fun o => funext (hw o)
  obtain rfl : c = c' := funext hc
  obtain rfl : xc = xc' := funext hx
  rfl

/-- The network: three layers, each on the previous one's output. -/
def net (W0 : SW.Idx → EReal) (c0 : Fin 256 → EReal) (W1 : SW.Idx → EReal) (c1 : Fin 256 → EReal)
    (W2 : SW.Idx → EReal) (c2 : Fin 256 → EReal) (x : SX.Idx → EReal) : SX.Idx → EReal :=
  layer W2 c2 (layer W1 c1 (layer W0 c0 x))

/-- The network's entry at sample `b`, channel `o`, position `n`: three one-column layers with sample `b`'s weights on
    column `(b, ·, n)` of the input. -/
theorem net_apply (W0 : SW.Idx → EReal) (c0 : Fin 256 → EReal) (W1 : SW.Idx → EReal) (c1 : Fin 256 → EReal)
    (W2 : SW.Idx → EReal) (c2 : Fin 256 → EReal) (x : SX.Idx → EReal) (b : Fin 16) (o : Fin 256) (n : Fin 16384) :
    net W0 c0 W1 c1 W2 c2 x (ix3 b o n)
      = colLayer (fun o i => W2 (ix3 b o i)) c2
          (colLayer (fun o i => W1 (ix3 b o i)) c1
            (colLayer (fun o i => W0 (ix3 b o i)) c0 (fun i => x (ix3 b i n)))) o := rfl

end Cert.StyledMlp

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.HostSide.lean ====
/-
  What the kernel's region finds in the arrays that the host operations before it wrote.

  Before the region the host prepares, for each of the three layers, the per-sample weights (a style vector from `z`,
  the weight matrix scaled by it, each output channel's row normalised by the inverse square root of its sum of squares
  plus a small constant) and rounds them to a shorter float format, and it views each bias vector as a column. The
  reference prepares the same three weight arrays by the same operations in the same order; over the extended reals the
  rounding is the identity, so the arrays the region finds are exactly the reference's weight terms of the same
  arguments. Nothing of the preparation is opened: the two terms are one by unfolding names. A bias column read at row
  `o` is the bias vector at `o`.
-/
import proofs.«115593_j55516747268437_2_alg».proof.Proof.Gen.KernelIdeal.Frame
import proofs.«115593_j55516747268437_2_alg».proof.Proof.Gen.ReferenceIdeal.Read
import proofs.«115593_j55516747268437_2_alg».proof.Proof.LibKeepdims
import Idealize.ShloMosaic.Lib.StableHlo.Run

noncomputable section

namespace Cert.StyledMlp.HostSide

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-- The first layer's weights as the region finds them: the reference's weight term of `z, w0, mw0, mb0`. -/
theorem weights0 (c : Dev nD) :
    (V m c main_v22 : S16x256x256.Idx → EReal)
      = Cert.ReferenceIdeal.Read.val_main_v21 (F := Ideal) (m ((c : Thread nD τ).loc main_arg1)) (m ((c : Thread nD τ).loc main_arg2))
          (m ((c : Thread nD τ).loc main_arg3)) (m ((c : Thread nD τ).loc main_arg4)) := by
  dsimp only [Gen.V, Gen.hostOps0]
  after_results_simp
  rfl

/-- The second layer's weights: the reference's weight term of `z, w1, mw1, mb1`. -/
theorem weights1 (c : Dev nD) :
    (V m c main_v45 : S16x256x256.Idx → EReal)
      = Cert.ReferenceIdeal.Read.val_main_v54 (F := Ideal) (m ((c : Thread nD τ).loc main_arg1)) (m ((c : Thread nD τ).loc main_arg6))
          (m ((c : Thread nD τ).loc main_arg7)) (m ((c : Thread nD τ).loc main_arg8)) := by
  dsimp only [Gen.V, Gen.hostOps0]
  after_results_simp
  rfl

/-- The third layer's weights: the reference's weight term of `z, w2, mw2, mb2`. -/
theorem weights2 (c : Dev nD) :
    (V m c main_v68 : S16x256x256.Idx → EReal)
      = Cert.ReferenceIdeal.Read.val_main_v87 (F := Ideal) (m ((c : Thread nD τ).loc main_arg1)) (m ((c : Thread nD τ).loc main_arg10))
          (m ((c : Thread nD τ).loc main_arg11)) (m ((c : Thread nD τ).loc main_arg12)) := by
  dsimp only [Gen.V, Gen.hostOps0]
  after_results_simp
  rfl

/-- The first bias column at row `o` is the bias vector `b0` at `o`. -/
theorem bias0 (c : Dev nD) (o : Fin 256) :
    (V m c main_v69 : S256x1.Idx → EReal) (ix2 o (0 : Fin 1)) = (m ((c : Thread nD τ).loc main_arg5) : S256.Idx → EReal) (ix1 o) := by
  have e : (V m c main_v69 : S256x1.Idx → EReal)
      = shapeCast S256x1 (m ((c : Thread nD τ).loc main_arg5) : S256.Idx → EReal) shapeCasts_S256_S256x1 := by
    dsimp only [Gen.V, Gen.hostOps0]
    after_results_simp
    rfl
  rw [e]
  exact Cert.Keepdims.shapeCast_a_a1_apply _ _ o 0

/-- The second bias column at row `o` is the bias vector `b1` at `o`. -/
theorem bias1 (c : Dev nD) (o : Fin 256) :
    (V m c main_v70 : S256x1.Idx → EReal) (ix2 o (0 : Fin 1)) = (m ((c : Thread nD τ).loc main_arg9) : S256.Idx → EReal) (ix1 o) := by
  have e : (V m c main_v70 : S256x1.Idx → EReal)
      = shapeCast S256x1 (m ((c : Thread nD τ).loc main_arg9) : S256.Idx → EReal) shapeCasts_S256_S256x1 := by
    dsimp only [Gen.V, Gen.hostOps0]
    after_results_simp
    rfl
  rw [e]
  exact Cert.Keepdims.shapeCast_a_a1_apply _ _ o 0

/-- The third bias column at row `o` is the bias vector `b2` at `o`. -/
theorem bias2 (c : Dev nD) (o : Fin 256) :
    (V m c main_v71 : S256x1.Idx → EReal) (ix2 o (0 : Fin 1)) = (m ((c : Thread nD τ).loc main_arg13) : S256.Idx → EReal) (ix1 o) := by
  have e : (V m c main_v71 : S256x1.Idx → EReal)
      = shapeCast S256x1 (m ((c : Thread nD τ).loc main_arg13) : S256.Idx → EReal) shapeCasts_S256_S256x1 := by
    dsimp only [Gen.V, Gen.hostOps0]
    after_results_simp
    rfl
  rw [e]
  exact Cert.Keepdims.shapeCast_a_a1_apply _ _ o 0

end Cert.StyledMlp.HostSide

end
-- ==== Proof.LibContract0.lean ====
/-
  A matrix product that contracts the FIRST axis of both operands, over the extended reals and over arbitrary extents:
  for an `[K, R]` array `g` and an `[K, N]` array `h` the entry `(p, q)` of `gᵀ · h` is `∑ s, g s p · h s q`. Beside it
  the product that contracts the left operand's last axis against the right operand's first, `∑ k, x p k · w k q`, for
  operands of any two float formats (over the extended reals a format is only a label).
-/
import Idealize.ShloMosaic.Lib.Pipeline.Value
import Idealize.ShloMosaic.Lib.ValueIdx
import Idealize.ShloMosaic.Lib.ValueLayout
import Idealize.ShloMosaic.PureOps.Ideal.Laws

noncomputable section

namespace Cert.Contract0

open Idealize.ShloMosaic Idealize.ShloMosaic.ValueIdx

/-- A matrix product into a zero accumulator that contracts axis 0 of both operands, read at `(p, q)`: the sum over
    `s` of `g s p · h s q`. The four hypotheses say which operand coordinates the dimension numbers pick. -/
theorem matmul_cols {K R N : ℕ} {φ₁ φ₂ : FTy} (d : DotDims ⟨2, ![K, R]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (q ⟨0, by omega⟩).val)
    (hl1 : ∀ (j : (⟨2, ![R, N]⟩ : Shape).Idx) (q : d.contr.Idx), (d.lhsIdx j q 1).val = (j 0).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (g : FVec Ideal ⟨2, ![K, R]⟩ φ₁) (h : FVec Ideal ⟨2, ![K, N]⟩ φ₂) (p : Fin R) (q : Fin N) :
    matmul d none g h (constant (F := Ideal) ⟨2, ![R, N]⟩ .f32 0x00000000#32) (ix2 p q) = ∑ s : Fin K, g (ix2 s p) * h (ix2 s q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- A matrix product into a zero accumulator, rows times columns with one contracted axis, read at `(p, q)`: the sum
    over `k` of `x p k · w k q`, for operands of any two formats. -/
theorem matmul_rows {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ φ₁) (w : FVec Ideal ⟨2, ![K, N]⟩ φ₂) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Contract0

end
-- ==== Proof.Body.lean ====
/-
  What the kernel body stores, read at one entry of its output block.

  At a grid point the body holds three weight blocks `[1, 256, 256]` (one sample's weights for the three layers), three
  bias columns `[256, 1]` and an activation block `[1, 256, 2048]` (one sample, all channels, 2048 positions). It
  computes, three times over, a matrix product plus the bias column spread along the rows, then the scaled leaky
  rectifier; the roundings to a shorter float format between the stages are the identity on extended reals. Read at
  output channel `o` and position `n` of the block this is the three one-column layers of `Layer.lean` on column `n`
  of the activation block.
-/
import proofs.«115593_j55516747268437_2_alg».proof.Proof.Gen.KernelIdeal.Frame
import proofs.«115593_j55516747268437_2_alg».proof.Proof.Layer
import proofs.«115593_j55516747268437_2_alg».proof.Proof.LibContract0
import proofs.«115593_j55516747268437_2_alg».proof.Proof.LibKeepdims
import Idealize.ShloMosaic.Lib.ValueLayout
import Idealize.ShloMosaic.Lib.Pipeline.Value

noncomputable section

namespace Cert.StyledMlp.Body

open Idealize.ShloMosaic Idealize.ShloMosaic.ValueIdx Cert.KernelIdeal Cert.KernelIdeal.Gen Cert.StyledMlp

/-- A `[256, 256]` weight block times a `[256, 2048]` activation block, plus the bias column spread along the rows. -/
def affine {φw φh : FTy} (w : FVec Ideal S256x256 φw) (bc : FVec Ideal S256x1 .f32) (h : FVec Ideal S256x2048 φh) :
    FVec Ideal S256x2048 .f32 :=
  addf (matmul dot_S256x256_S256x2048_S256x2048_1_0_0_1_n_n none w h (constant (F := Ideal) S256x2048 .f32 0x00000000#32))
    (broadcastTo S256x2048 bc broadcasts_S256x1_S256x2048)

/-- The scaled leaky rectifier on a whole block, in the body's spelling. -/
def rect (a : FVec Ideal S256x2048 .f32) : FVec Ideal S256x2048 .f32 :=
  mulf (select (cmpf .oge a (broadcast S256x2048 (Scalar.ofBits (F := Ideal) .f32 0x00000000#32))) a
      (mulf (broadcast S256x2048 (Scalar.ofBits (F := Ideal) .f32 0x3E4CCCCD#32)) a))
    (broadcast S256x2048 (Scalar.ofBits (F := Ideal) .f32 0x3FB504F3#32))

theorem rect_apply (a : FVec Ideal S256x2048 .f32) (j : S256x2048.Idx) : rect a j = act (a j) := rfl

/-- The product's dimension numbers contract the weight block's second axis with the activation block's first. -/
theorem affine_apply {φw φh : FTy} (w : FVec Ideal S256x256 φw) (bc : FVec Ideal S256x1 .f32) (h : FVec Ideal S256x2048 φh)
    (o : Fin 256) (n : Fin 2048) :
    affine w bc h (ix2 o n) = ∑ k : Fin 256, w (ix2 o k) * h (ix2 k n) + bc (ix2 o (0 : Fin 1)) := by
  unfold affine
  rw [addf_apply, Cert.Keepdims.broadcastTo_a1_ab_apply]
  congr 1
  refine Cert.Contract0.matmul_rows dot_S256x256_S256x2048_S256x2048_1_0_0_1_n_n rfl rfl ?_ ?_ ?_ ?_ w h o n
  · intro j q
    unfold DotDims.lhsIdx
    rw [dif_neg (show ¬(0 : Fin S256x256.rank) ∈ dot_S256x256_S256x2048_S256x2048_1_0_0_1_n_n.lhsBatch by decide),
      dif_pos (show (0 : Fin S256x256.rank) ∈ dot_S256x256_S256x2048_S256x2048_1_0_0_1_n_n.lhsNonContracting by decide)]
    rfl
  · intro j q
    exact dot_S256x256_S256x2048_S256x2048_1_0_0_1_n_n.lhsIdx_val_of_single rfl j q
  · intro j q
    exact dot_S256x256_S256x2048_S256x2048_1_0_0_1_n_n.rhsIdx_val_of_single rfl j q
  · intro j q
    unfold DotDims.rhsIdx
    rw [dif_neg (show ¬(1 : Fin S256x2048.rank) ∈ dot_S256x256_S256x2048_S256x2048_1_0_0_1_n_n.rhsBatch by decide),
      dif_pos (show (1 : Fin S256x2048.rank) ∈ dot_S256x256_S256x2048_S256x2048_1_0_0_1_n_n.rhsNonContracting by decide)]
    rfl

/-- One stage, read at an entry: a one-column layer on column `n` of the stage's input. -/
theorem stage_apply {φw φh : FTy} (w : FVec Ideal S256x256 φw) (bc : FVec Ideal S256x1 .f32) (h : FVec Ideal S256x2048 φh)
    (o : Fin 256) (n : Fin 2048) :
    rect (affine w bc h) (ix2 o n)
      = colLayer (fun o i => w (ix2 o i)) (fun o => bc (ix2 o (0 : Fin 1))) (fun i => h (ix2 i n)) o := by
  rw [rect_apply, affine_apply]
  rfl

/-- The stored block is the three stages on the loaded blocks: the body's arithmetic regrouped, nothing computed. -/
theorem stored_eq (x0 x1 x2 : Vec Ideal S1x256x256 .bf16) (x3 x4 x5 : Vec Ideal S256x1 .f32) (x6 : Vec Ideal S1x256x2048 .f32) :
    k0_pay1 (F := Ideal) (k0_pay2 x2) (k0_pay3 x5) (k0_pay4 x0 x1 x3 x4 x6) (k0_pay5 x0 x1 x3 x4 x6) (k0_pay6 x0 x1 x3 x4 x6)
      = shapeCast S1x256x2048
          (rect (affine (φw := .bf16) (φh := .bf16) (shapeCast S256x256 x2 shapeCasts_S1x256x256_S256x256) (shapeCast S256x1 x5 shapeCasts_S256x1_S256x1)
            (truncf .bf16 (rect (affine (φw := .bf16) (φh := .bf16) (shapeCast S256x256 x1 shapeCasts_S1x256x256_S256x256) (shapeCast S256x1 x4 shapeCasts_S256x1_S256x1)
              (truncf .bf16 (rect (affine (φw := .bf16) (φh := .bf16) (shapeCast S256x256 x0 shapeCasts_S1x256x256_S256x256) (shapeCast S256x1 x3 shapeCasts_S256x1_S256x1)
                (truncf .bf16 (shapeCast S256x2048 x6 shapeCasts_S1x256x2048_S256x2048) bitsLt_bf16_f32))) bitsLt_bf16_f32))) bitsLt_bf16_f32)))
          shapeCasts_S256x2048_S1x256x2048 := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block, at channel `o` and position `n`: three one-column layers with the point's
    weight blocks and bias columns on column `n` of the point's activation block. -/
theorem out_apply (x0 x1 x2 : Vec Ideal S1x256x256 .bf16) (x3 x4 x5 : Vec Ideal S256x1 .f32) (x6 : Vec Ideal S1x256x2048 .f32)
    (z : Fin 1) (o : Fin 256) (n : Fin 2048) :
    out0_7 (F := Ideal) x0 x1 x2 x3 x4 x5 x6 (ix3 z o n)
      = colLayer (fun o i => x2 (ix3 (0 : Fin 1) o i)) (fun o => x5 (ix2 o (0 : Fin 1)))
          (colLayer (fun o i => x1 (ix3 (0 : Fin 1) o i)) (fun o => x4 (ix2 o (0 : Fin 1)))
            (colLayer (fun o i => x0 (ix3 (0 : Fin 1) o i)) (fun o => x3 (ix2 o (0 : Fin 1))) (fun i => x6 (ix3 (0 : Fin 1) i n)))) o := by
  unfold out0_7
  rw [View.canon_unit_zero hz3]
  simp only [View.ld_unit_zero (S := S1x256x256) hz3, View.ld_unit_zero (S := S256x1) hz2, View.ld_unit_zero (S := S1x256x2048) hz3]
  rw [stored_eq, shapeCast_ab_1ab_apply, stage_apply]
  congr 1
  · funext o i; exact shapeCast_1ab_ab_apply x2 _ o i
  · funext o; rw [shapeCast_self]
  · funext k2
    rw [truncf_apply, stage_apply]
    congr 1
    · funext o i; exact shapeCast_1ab_ab_apply x1 _ o i
    · funext o; rw [shapeCast_self]
    · funext k1
      rw [truncf_apply, stage_apply]
      congr 1
      · funext o i; exact shapeCast_1ab_ab_apply x0 _ o i
      · funext o; rw [shapeCast_self]
      · funext k0
        rw [truncf_apply]
        exact shapeCast_1ab_ab_apply x6 _ k0 n

end Cert.StyledMlp.Body

end
-- ==== Proof.Blocks.lean ====
/-
  From the blocks the grid points write to the whole result array.

  The grid has 16 × 8 points: point `(b, s)` works on sample `b` and on positions `2048·s … 2048·s + 2047`. Its three
  weight blocks are sample `b`'s rows of the three weight arrays, its bias columns are the whole bias columns, its
  activation block is sample `b`, all channels, that stretch of positions; it writes the same block of the result. An
  entry `(b, o, n)` of the result therefore depends only on sample `b`'s weights and on column `(b, ·, n)` of the input:
  it is the network of `Layer.lean` on the arrays as the region finds them. The 128 blocks tile the result array, so
  the array ends holding that network everywhere.
-/
import proofs.«115593_j55516747268437_2_alg».proof.Proof.Gen.KernelIdeal.Value
import proofs.«115593_j55516747268437_2_alg».proof.Proof.Body
import Idealize.ShloMosaic.Lib.Pipeline.Value

set_option maxRecDepth 16384

noncomputable section

namespace Cert.StyledMlp.Blocks

open Idealize.ShloMosaic Idealize.ShloMosaic.TcCoe Idealize.SL.Sem Idealize.ShloMosaic.ValueIdx
open Idealize.ShloMosaic.Pipeline (Dat)
open Cert.KernelIdeal Cert.KernelIdeal.Gen Cert.StyledMlp

variable (m : (ℓ : Loc nD τ sig) → Buf (Elt Ideal) ℓ) (ρ : Dev nD → PrngReg)

/-- The network on the arrays as the region finds them: the three prepared weight arrays, the three bias columns read
    down their one column, and the input. -/
def found (c : Dev nD) : S16x256x16384.Idx → EReal :=
  net (V m c main_v22 : S16x256x256.Idx → EReal) (fun o => (V m c main_v69 : S256x1.Idx → EReal) (ix2 o (0 : Fin 1)))
    (V m c main_v45 : S16x256x256.Idx → EReal) (fun o => (V m c main_v70 : S256x1.Idx → EReal) (ix2 o (0 : Fin 1)))
    (V m c main_v68 : S16x256x256.Idx → EReal) (fun o => (V m c main_v71 : S256x1.Idx → EReal) (ix2 o (0 : Fin 1)))
    (V m c main_arg0 : S16x256x16384.Idx → EReal)

/-- The printed index maps, decided over the 128 points: the weight windows sit at the output block's sample, the bias
    windows never move, the activation window sits at the output block's sample and stretch of positions. -/
theorem idx_facts : ∀ t : Fin cfg0.N,
    win0_0.index t (0 : Fin 3) = win0_7.index t (0 : Fin 3) ∧ win0_0.index t (1 : Fin 3) = 0 ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = win0_7.index t (0 : Fin 3) ∧ win0_6.index t (1 : Fin 3) = 0
    ∧ win0_6.index t (2 : Fin 3) = win0_7.index t (2 : Fin 3)
    ∧ win0_7.index t (0 : Fin 3) < 16 ∧ win0_7.index t (1 : Fin 3) = 0 ∧ win0_7.index t (2 : Fin 3) < 8 :=
  (by decide +kernel : ∀ t : Fin grid0.N, _)

/-- Every (sample, stretch) pair is some point's output block. -/
theorem idx_onto : ∀ (q0 : Fin 16) (q2 : Fin 8), ∃ t : Fin cfg0.N, win0_7.index t = ![q0.val, 0, q2.val] :=
  (by decide +kernel : ∀ (q0 : Fin 16) (q2 : Fin 8), ∃ t : Fin grid0.N, win0_7.index t = ![q0.val, 0, q2.val])

/-! ## Each input block as a part of its array -/

/-- The first weight window's block at a point is its sample's rows of the first weight array. -/
theorem wblk0 (c : Dev nD) (t : Fin cfg0.N) (b : Fin 16) (hb : b.val = win0_7.index t (0 : Fin 3)) (o i : Fin 256) :
    (iblk m c 0 t : Vec Ideal S1x256x256 .bf16) (ix3 (0 : Fin 1) o i) = (V m c main_v22 : S16x256x256.Idx → EReal) (ix3 b o i) := by
  obtain ⟨e0, e1, e2, -⟩ := idx_facts t
  unfold iblk
  rw [View.read_apply]
  show (V m c main_v22 : S16x256x256.Idx → EReal) _ = _
  congr 1
  funext a
  apply Fin.ext
  match a with
  | ⟨0, _⟩ => show win0_0.index t (0 : Fin 3) * 1 + 1 * 0 = b.val; omega
  | ⟨1, _⟩ => show win0_0.index t (1 : Fin 3) * 256 + 1 * o.val = o.val; omega
  | ⟨2, _⟩ => show win0_0.index t (2 : Fin 3) * 256 + 1 * i.val = i.val; omega

/-- The second weight window's block at a point is its sample's rows of the second weight array. -/
theorem wblk1 (c : Dev nD) (t : Fin cfg0.N) (b : Fin 16) (hb : b.val = win0_7.index t (0 : Fin 3)) (o i : Fin 256) :
    (iblk m c 1 t : Vec Ideal S1x256x256 .bf16) (ix3 (0 : Fin 1) o i) = (V m c main_v45 : S16x256x256.Idx → EReal) (ix3 b o i) := by
  obtain ⟨-, -, -, e0, e1, e2, -⟩ := idx_facts t
  unfold iblk
  rw [View.read_apply]
  show (V m c main_v45 : S16x256x256.Idx → EReal) _ = _
  congr 1
  funext a
  apply Fin.ext
  match a with
  | ⟨0, _⟩ => show win0_1.index t (0 : Fin 3) * 1 + 1 * 0 = b.val; omega
  | ⟨1, _⟩ => show win0_1.index t (1 : Fin 3) * 256 + 1 * o.val = o.val; omega
  | ⟨2, _⟩ => show win0_1.index t (2 : Fin 3) * 256 + 1 * i.val = i.val; omega

/-- The third weight window's block at a point is its sample's rows of the third weight array. -/
theorem wblk2 (c : Dev nD) (t : Fin cfg0.N) (b : Fin 16) (hb : b.val = win0_7.index t (0 : Fin 3)) (o i : Fin 256) :
    (iblk m c 2 t : Vec Ideal S1x256x256 .bf16) (ix3 (0 : Fin 1) o i) = (V m c main_v68 : S16x256x256.Idx → EReal) (ix3 b o i) := by
  obtain ⟨-, -, -, -, -, -, e0, e1, e2, -⟩ := idx_facts t
  unfold iblk
  rw [View.read_apply]
  show (V m c main_v68 : S16x256x256.Idx → EReal) _ = _
  congr 1
  funext a
  apply Fin.ext
  match a with
  | ⟨0, _⟩ => show win0_2.index t (0 : Fin 3) * 1 + 1 * 0 = b.val; omega
  | ⟨1, _⟩ => show win0_2.index t (1 : Fin 3) * 256 + 1 * o.val = o.val; omega
  | ⟨2, _⟩ => show win0_2.index t (2 : Fin 3) * 256 + 1 * i.val = i.val; omega

/-- The first bias window's block is the whole first bias column, at every point. -/
theorem cblk0 (c : Dev nD) (t : Fin cfg0.N) (o : Fin 256) :
    (iblk m c 3 t : Vec Ideal S256x1 .f32) (ix2 o (0 : Fin 1)) = (V m c main_v69 : S256x1.Idx → EReal) (ix2 o (0 : Fin 1)) := by
  obtain ⟨-, -, -, -, -, -, -, -, -, e0, e1, -⟩ := idx_facts t
  unfold iblk
  rw [View.read_apply]
  show (V m c main_v69 : S256x1.Idx → EReal) _ = _
  congr 1
  funext a
  apply Fin.ext
  match a with
  | ⟨0, _⟩ => show win0_3.index t (0 : Fin 2) * 256 + 1 * o.val = o.val; omega
  | ⟨1, _⟩ => show win0_3.index t (1 : Fin 2) * 1 + 1 * 0 = 0; omega

/-- The second bias window's block is the whole second bias column. -/
theorem cblk1 (c : Dev nD) (t : Fin cfg0.N) (o : Fin 256) :
    (iblk m c 4 t : Vec Ideal S256x1 .f32) (ix2 o (0 : Fin 1)) = (V m c main_v70 : S256x1.Idx → EReal) (ix2 o (0 : Fin 1)) := by
  obtain ⟨-, -, -, -, -, -, -, -, -, -, -, e0, e1, -⟩ := idx_facts t
  unfold iblk
  rw [View.read_apply]
  show (V m c main_v70 : S256x1.Idx → EReal) _ = _
  congr 1
  funext a
  apply Fin.ext
  match a with
  | ⟨0, _⟩ => show win0_4.index t (0 : Fin 2) * 256 + 1 * o.val = o.val; omega
  | ⟨1, _⟩ => show win0_4.index t (1 : Fin 2) * 1 + 1 * 0 = 0; omega

/-- The third bias window's block is the whole third bias column. -/
theorem cblk2 (c : Dev nD) (t : Fin cfg0.N) (o : Fin 256) :
    (iblk m c 5 t : Vec Ideal S256x1 .f32) (ix2 o (0 : Fin 1)) = (V m c main_v71 : S256x1.Idx → EReal) (ix2 o (0 : Fin 1)) := by
  obtain ⟨-, -, -, -, -, -, -, -, -, -, -, -, -, e0, e1, -⟩ := idx_facts t
  unfold iblk
  rw [View.read_apply]
  show (V m c main_v71 : S256x1.Idx → EReal) _ = _
  congr 1
  funext a
  apply Fin.ext
  match a with
  | ⟨0, _⟩ => show win0_5.index t (0 : Fin 2) * 256 + 1 * o.val = o.val; omega
  | ⟨1, _⟩ => show win0_5.index t (1 : Fin 2) * 1 + 1 * 0 = 0; omega

/-- The activation window's block at a point is its sample, all channels, its stretch of 2048 positions of the input. -/
theorem xblk (c : Dev nD) (t : Fin cfg0.N) (b : Fin 16) (hb : b.val = win0_7.index t (0 : Fin 3)) (i : Fin 256)
    (n : Fin 2048) (p : Fin 16384) (hp : p.val = win0_7.index t (2 : Fin 3) * 2048 + n.val) :
    (iblk m c 6 t : Vec Ideal S1x256x2048 .f32) (ix3 (0 : Fin 1) i n) = (V m c main_arg0 : S16x256x16384.Idx → EReal) (ix3 b i p) := by
  obtain ⟨-, -, -, -, -, -, -, -, -, -, -, -, -, -, -, e0, e1, e2, -⟩ := idx_facts t
  unfold iblk
  rw [View.read_apply]
  show (V m c main_arg0 : S16x256x16384.Idx → EReal) _ = _
  congr 1
  funext a
  apply Fin.ext
  match a with
  | ⟨0, _⟩ => show win0_6.index t (0 : Fin 3) * 1 + 1 * 0 = b.val; omega
  | ⟨1, _⟩ => show win0_6.index t (1 : Fin 3) * 256 + 1 * i.val = i.val; omega
  | ⟨2, _⟩ => show win0_6.index t (2 : Fin 3) * 2048 + 1 * n.val = p.val; omega

/-! ## What a point writes back, the cover, the array -/

/-- What point `t` writes back is block `t` of the network on the arrays as the region finds them. -/
theorem flushed_eq (c : Dev nD) (t : Fin cfg0.N) :
    (dats m 0 c).flushed 7 t = ((cfg0.win 7).blk t).view.read (Elt Ideal) (found m c) := by
  rw [Cert.KernelIdeal.Value.flushed7]
  obtain ⟨-, -, -, -, -, -, -, -, -, -, -, -, -, -, -, -, -, -, h0, h1, h2⟩ := idx_facts t
  funext j
  obtain ⟨z, o, n, rfl⟩ : ∃ (z : Fin 1) (o : Fin 256) (n : Fin 2048), (j : S1x256x2048.Idx) = ix3 z o n :=
    ⟨j 0, j 1, j 2, eq_ix3 j⟩
  rw [View.read_apply]
  have hn : n.val < 2048 := n.isLt
  have hemb : ((cfg0.win 7).blk t).view.emb (ix3 z o n)
      = ix3 (⟨win0_7.index t (0 : Fin 3), h0⟩ : Fin 16) o (⟨win0_7.index t (2 : Fin 3) * 2048 + n.val, by omega⟩ : Fin 16384) := by
    funext a
    apply Fin.ext
    have hz : z.val = 0 := by omega
    match a with
    | ⟨0, _⟩ => show win0_7.index t (0 : Fin 3) * 1 + 1 * z.val = win0_7.index t (0 : Fin 3); omega
    | ⟨1, _⟩ => show win0_7.index t (1 : Fin 3) * 256 + 1 * o.val = o.val; omega
    | ⟨2, _⟩ => show win0_7.index t (2 : Fin 3) * 2048 + 1 * n.val = win0_7.index t (2 : Fin 3) * 2048 + n.val; omega
  show out0_7 (F := Ideal) (iblk m c 0 t) (iblk m c 1 t) (iblk m c 2 t) (iblk m c 3 t) (iblk m c 4 t) (iblk m c 5 t) (iblk m c 6 t) (ix3 z o n)
    = found m c (((cfg0.win 7).blk t).view.emb (ix3 z o n))
  rw [hemb]
  unfold found
  rw [net_apply]
  refine (Body.out_apply (iblk m c 0 t) (iblk m c 1 t) (iblk m c 2 t) (iblk m c 3 t) (iblk m c 4 t) (iblk m c 5 t) (iblk m c 6 t) z o n).trans ?_
  exact colLayer_congr (fun o i => wblk2 m c t _ rfl o i) (fun o => cblk2 m c t o)
    (fun k2 => colLayer_congr (fun o i => wblk1 m c t _ rfl o i) (fun o => cblk1 m c t o)
      (fun k1 => colLayer_congr (fun o i => wblk0 m c t _ rfl o i) (fun o => cblk0 m c t o)
        (fun k0 => xblk m c t _ rfl k0 n _ rfl) k1) k2) o

/-- An index of the result array is in point `t`'s block iff each coordinate is in the block's range on its axis. -/
theorem mem_blk (t : Fin cfg0.N) (i : S16x256x16384.Idx) :
    i ∈ ((cfg0.win 7).blk t).view.set ↔ ∀ a : Fin 3, win0_7.index t a * S1x256x2048.size a ≤ (i a).val
      ∧ (i a).val < win0_7.index t a * S1x256x2048.size a + S1x256x2048.size a := by
  show i ∈ ((View.whole main_v72).slice (win0_7.rect t)).set ↔ _
  rw [View.set_slice_whole, Rect.mem_set_unit]
  exact Iff.rfl

/-- The 128 blocks cover the result array: entry `(b, o, p)` is in the block of the point of sample `b` and stretch `p / 2048`. -/
theorem cover (i : S16x256x16384.Idx) : ∃ t : Fin cfg0.N, (cfg0.win 7).flush t = true ∧ i ∈ ((cfg0.win 7).blk t).view.set := by
  have hi0 : (i 0).val < 16 := (i 0).isLt
  have hi1 : (i 1).val < 256 := (i 1).isLt
  have hi2 : (i 2).val < 16384 := (i 2).isLt
  obtain ⟨t, ht⟩ := idx_onto ⟨(i 0).val, hi0⟩ ⟨(i 2).val / 2048, by omega⟩
  have q0 : win0_7.index t (0 : Fin 3) = (i 0).val := congrFun ht 0
  have q1 : win0_7.index t (1 : Fin 3) = 0 := congrFun ht 1
  have q2 : win0_7.index t (2 : Fin 3) = (i 2).val / 2048 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 2048 ≤ (i 2).val ∧ (i 2).val < win0_7.index t (2 : Fin 3) * 2048 + 2048; omega

/-- The result array after the run is the network on the arrays as the region finds them. -/
theorem final (c : Dev nD) : (dats m 0 c).arrAt 7 cfg0.N = found m c :=
  (dats m 0 c).arrAt_eq_of_cover 7 (found m c) (fun t _ => flushed_eq m c t) cover

end Cert.StyledMlp.Blocks

end
-- ==== Proof.RefLayers.lean ====
/-
  The reference, layer by layer.

  The reference runs its three layers one after another on whole arrays: a batched matrix product of the layer's
  prepared weights `[16, 256, 256]` with the activations `[16, 256, 16384]` over the input channels, the bias spread
  over samples and positions, the comparison with zero, the product with 0.2, the choice between the two, the product
  with √2. Read at an entry `(b, o, n)` that is `act (∑ i, W[b, o, i] · h[b, i, n] + c[o])`: the layer of `Layer.lean`,
  with the prepared weights kept as ONE unopened term of the arguments.
-/
import proofs.«115593_j55516747268437_2_alg».proof.Proof.Gen.ReferenceIdeal.Read
import proofs.«115593_j55516747268437_2_alg».proof.Proof.Layer

noncomputable section

namespace Cert.StyledMlp.RefLayers

open Idealize.ShloMosaic Idealize.ShloMosaic.ValueIdx Cert.ReferenceIdeal Cert.ReferenceIdeal.Read Cert.StyledMlp

variable (x0 : (⟨S16x256x16384, .f32⟩ : BufTy).Contents (Elt Ideal)) (x1 : (⟨S16x512, .f32⟩ : BufTy).Contents (Elt Ideal))
  (x2 : (⟨S256x256, .f32⟩ : BufTy).Contents (Elt Ideal)) (x3 : (⟨S256x512, .f32⟩ : BufTy).Contents (Elt Ideal))
  (x4 x5 : (⟨S256, .f32⟩ : BufTy).Contents (Elt Ideal))
  (x6 : (⟨S256x256, .f32⟩ : BufTy).Contents (Elt Ideal)) (x7 : (⟨S256x512, .f32⟩ : BufTy).Contents (Elt Ideal))
  (x8 x9 : (⟨S256, .f32⟩ : BufTy).Contents (Elt Ideal))
  (x10 : (⟨S256x256, .f32⟩ : BufTy).Contents (Elt Ideal)) (x11 : (⟨S256x512, .f32⟩ : BufTy).Contents (Elt Ideal))
  (x12 x13 : (⟨S256, .f32⟩ : BufTy).Contents (Elt Ideal))

/-! ## Where each stage reads its operands: the weight at `(b, o, i)`, the activation at `(b, i, n)`, the bias at `o` -/

theorem lidx22 (b : Fin 16) (o : Fin 256) (n : Fin 16384) (k : Fin 256) : lidx_main_v22 (ix3 b o n) k = ix3 b o k :=
  funext fun a => Fin.ext (by match a with | ⟨0, _⟩ => rfl | ⟨1, _⟩ => rfl | ⟨2, _⟩ => rfl)
theorem ridx22 (b : Fin 16) (o : Fin 256) (n : Fin 16384) (k : Fin 256) : ridx_main_v22 (ix3 b o n) k = ix3 b k n :=
  funext fun a => Fin.ext (by match a with | ⟨0, _⟩ => rfl | ⟨1, _⟩ => rfl | ⟨2, _⟩ => rfl)
theorem bidx24 (b : Fin 16) (o : Fin 256) (n : Fin 16384) : idx_main_v23 (idx_main_v24 (ix3 b o n)) = ix1 o :=
  funext fun a => Fin.ext (by match a with | ⟨0, _⟩ => rfl)

theorem lidx55 (b : Fin 16) (o : Fin 256) (n : Fin 16384) (k : Fin 256) : lidx_main_v55 (ix3 b o n) k = ix3 b o k :=
  funext fun a => Fin.ext (by match a with | ⟨0, _⟩ => rfl | ⟨1, _⟩ => rfl | ⟨2, _⟩ => rfl)
theorem ridx55 (b : Fin 16) (o : Fin 256) (n : Fin 16384) (k : Fin 256) : ridx_main_v55 (ix3 b o n) k = ix3 b k n :=
  funext fun a => Fin.ext (by match a with | ⟨0, _⟩ => rfl | ⟨1, _⟩ => rfl | ⟨2, _⟩ => rfl)
theorem bidx57 (b : Fin 16) (o : Fin 256) (n : Fin 16384) : idx_main_v56 (idx_main_v57 (ix3 b o n)) = ix1 o :=
  funext fun a => Fin.ext (by match a with | ⟨0, _⟩ => rfl)

theorem lidx88 (b : Fin 16) (o : Fin 256) (n : Fin 16384) (k : Fin 256) : lidx_main_v88 (ix3 b o n) k = ix3 b o k :=
  funext fun a => Fin.ext (by match a with | ⟨0, _⟩ => rfl | ⟨1, _⟩ => rfl | ⟨2, _⟩ => rfl)
theorem ridx88 (b : Fin 16) (o : Fin 256) (n : Fin 16384) (k : Fin 256) : ridx_main_v88 (ix3 b o n) k = ix3 b k n :=
  funext fun a => Fin.ext (by match a with | ⟨0, _⟩ => rfl | ⟨1, _⟩ => rfl | ⟨2, _⟩ => rfl)
theorem bidx90 (b : Fin 16) (o : Fin 256) (n : Fin 16384) : idx_main_v89 (idx_main_v90 (ix3 b o n)) = ix1 o :=
  funext fun a => Fin.ext (by match a with | ⟨0, _⟩ => rfl)

/-! ## The three layers -/

/-- The first layer's output is the layer of the prepared weights of `z, w0, mw0, mb0`, the bias `b0` and the input. -/
theorem layer0 : val_main_v32 (F := Ideal) x0 x1 x2 x3 x4 x5 = layer (val_main_v21 (F := Ideal) x1 x2 x3 x4) (fun o => x5 (ix1 o)) x0 := by
  funext j
  obtain ⟨b, o, n, rfl⟩ : ∃ (b : Fin 16) (o : Fin 256) (n : Fin 16384), j = ix3 b o n := ⟨j 0, j 1, j 2, eq_ix3 j⟩
  rw [layer_apply]
  simp only [val_main_v32_apply, val_main_v30_apply, val_main_v27_apply, val_main_v29_apply, val_main_v25_apply,
    val_main_v22_apply, val_main_v24_apply, val_main_v23_apply, val_main_v31_apply, val_main_cst_5_apply,
    val_main_v26_apply, val_main_cst_3_apply, val_main_v28_apply, val_main_cst_4_apply, lidx22, ridx22, bidx24]
  rfl

/-- The second layer's output: the layer of the prepared weights of `z, w1, mw1, mb1`, the bias `b1` and the first
    layer's output. -/
theorem layer1 : val_main_v65 (F := Ideal) x0 x1 x2 x3 x4 x5 x6 x7 x8 x9
    = layer (val_main_v54 (F := Ideal) x1 x6 x7 x8) (fun o => x9 (ix1 o)) (val_main_v32 (F := Ideal) x0 x1 x2 x3 x4 x5) := by
  funext j
  obtain ⟨b, o, n, rfl⟩ : ∃ (b : Fin 16) (o : Fin 256) (n : Fin 16384), j = ix3 b o n := ⟨j 0, j 1, j 2, eq_ix3 j⟩
  rw [layer_apply]
  simp only [val_main_v65_apply, val_main_v63_apply, val_main_v60_apply, val_main_v62_apply, val_main_v58_apply,
    val_main_v55_apply, val_main_v57_apply, val_main_v56_apply, val_main_v64_apply, val_main_cst_12_apply,
    val_main_v59_apply, val_main_cst_10_apply, val_main_v61_apply, val_main_cst_11_apply, lidx55, ridx55, bidx57]
  rfl

/-- The third layer's output: the layer of the prepared weights of `z, w2, mw2, mb2`, the bias `b2` and the second
    layer's output. -/
theorem layer2 : val_main_v98 (F := Ideal) x0 x1 x2 x3 x4 x5 x6 x7 x8 x9 x10 x11 x12 x13
    = layer (val_main_v87 (F := Ideal) x1 x10 x11 x12) (fun o => x13 (ix1 o)) (val_main_v65 (F := Ideal) x0 x1 x2 x3 x4 x5 x6 x7 x8 x9) := by
  funext j
  obtain ⟨b, o, n, rfl⟩ : ∃ (b : Fin 16) (o : Fin 256) (n : Fin 16384), j = ix3 b o n := ⟨j 0, j 1, j 2, eq_ix3 j⟩
  rw [layer_apply]
  simp only [val_main_v98_apply, val_main_v96_apply, val_main_v93_apply, val_main_v95_apply, val_main_v91_apply,
    val_main_v88_apply, val_main_v90_apply, val_main_v89_apply, val_main_v97_apply, val_main_cst_19_apply,
    val_main_v92_apply, val_main_cst_17_apply, val_main_v94_apply, val_main_cst_18_apply, lidx88, ridx88, bidx90]
  rfl

/-- The reference's result is the network of the three prepared weight arrays, the three bias vectors and the input. -/
theorem result_eq : val_main_v98 (F := Ideal) x0 x1 x2 x3 x4 x5 x6 x7 x8 x9 x10 x11 x12 x13
    = net (val_main_v21 (F := Ideal) x1 x2 x3 x4) (fun o => x5 (ix1 o)) (val_main_v54 (F := Ideal) x1 x6 x7 x8) (fun o => x9 (ix1 o))
        (val_main_v87 (F := Ideal) x1 x10 x11 x12) (fun o => x13 (ix1 o)) x0 := by
  rw [layer2, layer1, layer0]
  rfl

end Cert.StyledMlp.RefLayers

end
-- ==== Proof.lean ====
/-
  The kernel against its reference: three style-modulated layers (a per-sample weight matrix applied along the channel
  axis, a bias, a leaky rectifier scaled by √2) computed by ONE fused kernel over a 16 × 8 grid of (sample, stretch of
  2048 positions) blocks, against the same three layers computed one after another on whole arrays.

  Over the extended reals both programs compute the function `net` of `Proof/Layer.lean` of the same data:
  * the per-sample weights of each layer are prepared by the same host operations in both programs, and are carried
    through the proof as one unopened term of the arguments (`Proof/HostSide.lean`);
  * an entry of a layer is a sum over the 256 input channels — the kernel's matrix product into a zero accumulator on
    one block and the reference's batched product on the whole array are that same sum (`Proof/Body.lean`,
    `Proof/RefLayers.lean`); the kernel's roundings to a shorter float format between the stages are the identity;
  * an entry `(b, o, n)` of the result depends only on sample `b`'s weights and on column `(b, ·, n)` of the input, so
    the blocks the grid points write are the blocks of `net`, and they tile the result (`Proof/Blocks.lean`).
  No law of arithmetic beyond re-indexing is used, so the precondition (finite inputs) is never opened. The three frames
  are the generated frame runs; the idealization rewrote nothing, so it is preserved trivially.
-/
import proofs.«115593_j55516747268437_2_alg».proof.Defs
import proofs.«115593_j55516747268437_2_alg».proof.Proof.Gen.Kernel
import proofs.«115593_j55516747268437_2_alg».proof.Proof.Gen.Kernel.Frame
import proofs.«115593_j55516747268437_2_alg».proof.Proof.Gen.KernelIdeal
import proofs.«115593_j55516747268437_2_alg».proof.Proof.Gen.KernelIdeal.Frame
import proofs.«115593_j55516747268437_2_alg».proof.Proof.Gen.KernelIdeal.Value
import proofs.«115593_j55516747268437_2_alg».proof.Proof.Gen.ReferenceIdeal
import proofs.«115593_j55516747268437_2_alg».proof.Proof.Gen.ReferenceIdeal.Run
import proofs.«115593_j55516747268437_2_alg».proof.Proof.Gen.ReferenceIdeal.Read
import proofs.«115593_j55516747268437_2_alg».proof.Proof.Gen.Pre_finite_inputs
import proofs.«115593_j55516747268437_2_alg».proof.Proof.Layer
import proofs.«115593_j55516747268437_2_alg».proof.Proof.HostSide
import proofs.«115593_j55516747268437_2_alg».proof.Proof.Blocks
import proofs.«115593_j55516747268437_2_alg».proof.Proof.RefLayers
import Idealize.ShloMosaic.Adequacy
import Idealize.ShloMosaic.Init

noncomputable section

namespace Cert.Proof

open Idealize.ShloMosaic Idealize.ShloMosaic.TcCoe Idealize.SL.Sem Idealize.ShloMosaic.ValueIdx Cert.StyledMlp

/-- The result as a function of the kernel's argument arrays: the network of the three prepared weight arrays (the
    reference's weight terms, of `z` and each layer's `w`, `mw`, `mb`), the three bias vectors and the input. -/
def resultOf (m : (ℓ : Loc Cert.KernelIdeal.nD Cert.KernelIdeal.τ Cert.KernelIdeal.sig) → Buf (Elt Ideal) ℓ)
    (c : Dev Cert.KernelIdeal.nD) : Cert.KernelIdeal.S16x256x16384.Idx → EReal :=
  net
    (Cert.ReferenceIdeal.Read.val_main_v21 (F := Ideal) (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)))
    (fun o => (m ((c : Thread Cert.KernelIdeal.nD Cert.KernelIdeal.τ).loc Cert.KernelIdeal.main_arg5) : Cert.KernelIdeal.S256.Idx → EReal) (ix1 o))
    (Cert.ReferenceIdeal.Read.val_main_v54 (F := Ideal) (m ((c : Thread Cert.KernelIdeal.nD Cert.KernelIdeal.τ).loc Cert.KernelIdeal.main_arg1))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8)))
    (fun o => (m ((c : Thread Cert.KernelIdeal.nD Cert.KernelIdeal.τ).loc Cert.KernelIdeal.main_arg9) : Cert.KernelIdeal.S256.Idx → EReal) (ix1 o))
    (Cert.ReferenceIdeal.Read.val_main_v87 (F := Ideal) (m ((c : Thread Cert.KernelIdeal.nD Cert.KernelIdeal.τ).loc Cert.KernelIdeal.main_arg1))
      (m ((c : Thread Cert.KernelIdeal.nD Cert.KernelIdeal.τ).loc Cert.KernelIdeal.main_arg10))
      (m ((c : Thread Cert.KernelIdeal.nD Cert.KernelIdeal.τ).loc Cert.KernelIdeal.main_arg11))
      (m ((c : Thread Cert.KernelIdeal.nD Cert.KernelIdeal.τ).loc Cert.KernelIdeal.main_arg12)))
    (fun o => (m ((c : Thread Cert.KernelIdeal.nD Cert.KernelIdeal.τ).loc Cert.KernelIdeal.main_arg13) : Cert.KernelIdeal.S256.Idx → EReal) (ix1 o))
    (m ((c : Thread Cert.KernelIdeal.nD Cert.KernelIdeal.τ).loc Cert.KernelIdeal.main_arg0))

/-- The network on the arrays as the kernel's region finds them is the network of the arguments: the prepared weight
    arrays are the reference's weight terms, a bias column read down its column is the bias vector, and the input is
    as launched. -/
theorem found_eq (m : (ℓ : Loc Cert.KernelIdeal.nD Cert.KernelIdeal.τ Cert.KernelIdeal.sig) → Buf (Elt Ideal) ℓ)
    (c : Dev Cert.KernelIdeal.nD) : Blocks.found m c = resultOf m c := by
  unfold Blocks.found resultOf
  rw [HostSide.weights0 m c, HostSide.weights1 m c, HostSide.weights2 m c, Cert.KernelIdeal.Gen.V_main_arg0 m c,
    funext (HostSide.bias0 m c), funext (HostSide.bias1 m c), funext (HostSide.bias2 m c)]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the network of the (agreeing) arguments. -/
theorem algebraic : Cert.algebraic_KernelIdeal_ReferenceIdeal := by
  intro m ρ m' ρ' _ hagree
  refine ⟨fun c => resultOf m c, ?_, ?_⟩
  · exact (θ_run Cert.KernelIdeal.defs _ _).mono
      (fun r h c => ⟨(h c).1.trans ((Blocks.final m c).trans (found_eq m c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13⟩ := hagree c
    rw [Cert.ReferenceIdeal.Read.val_main_v98_eq, RefLayers.result_eq, a0, a1, a2, a3, a4, a5, a6, a7, a8, a9, a10, a11, a12, a13]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
